-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S100000x32 : Shape := ⟨2, ![100000, 32]⟩
abbrev S10000x32 : Shape := ⟨2, ![10000, 32]⟩
abbrev S1x64 : Shape := ⟨2, ![1, 64]⟩
abbrev S1700000x32 : Shape := ⟨2, ![1700000, 32]⟩
abbrev S1x32 : Shape := ⟨2, ![1, 32]⟩

abbrev nBuf : Space → Nat
  | .hbm => 65
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .f32⟩
  | .hbm, ⟨41, _⟩ => ⟨S100000x64, .f32⟩
  | .hbm, ⟨42, _⟩ => ⟨S1700000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x32, .f32⟩
  | .hbm, ⟨47, _⟩ => ⟨S100000x32, .f32⟩
  | .hbm, ⟨48, _⟩ => ⟨S100000x32, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x32, .f32⟩
  | .hbm, ⟨58, _⟩ => ⟨S_, .f32⟩
  | .hbm, ⟨59, _⟩ => ⟨S100000x32, .f32⟩
  | .hbm, ⟨60, _⟩ => ⟨S1700000x1, .i32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32, .f32⟩
  | .local _ .vmem, ⟨14, _⟩ => ⟨S10000x32, .f32⟩
  | .local _ .vmem, ⟨15, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S100000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S_, .f32⟩
  | .hbm, ⟨81, _⟩ => ⟨S1700000, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«168526_j29119878267593_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«168526_j29119878267593_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.DenseForms.lean ====
/-
  The three dense steps of the network, index by index, and the host's spelling of each.

  mm x w is the matrix product; reluBias A b adds the bias b to every row of A and rectifies; addBias A b only adds the
  bias. The host writes the product as a dot_general contracting the left operand's columns with the right operand's rows,
  the bias as the vector b broadcast to a [1, K] row and then down the M rows, and the rectifier as the maximum with a
  broadcast zero. On the extended reals each of these is the index-wise function.
-/
import Idealize.ShloMosaic.PureOps.Ideal.Laws
import Idealize.ShloMosaic.Lib.ValueIdx
import proofs.«168526_j29119878267593_2_alg».proof.Proof.LibHostSlab
import proofs.«168526_j29119878267593_2_alg».proof.Proof.LibHostRead

noncomputable section

open scoped BigOperators

namespace GcnDense

open Idealize.ShloMosaic Idealize.ShloMosaic.ValueIdx

variable {M K N : ℕ}

/-- The matrix product: entry (p, q) is the sum over k of x (p, k) * w (k, q). -/
def mm (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The bias added to every row, then the rectifier: entry (p, j) is max (A (p, j) + b j) 0. -/
def reluBias (A : FVec Ideal ⟨2, ![M, K]⟩ .f32) (b : FVec Ideal ⟨1, ![K]⟩ .f32) : FVec Ideal ⟨2, ![M, K]⟩ .f32 :=
  fun i => max (A i + b (ix1 (i 1))) 0

/-- The bias added to every row: entry (p, j) is A (p, j) + b j. -/
def addBias (A : FVec Ideal ⟨2, ![M, N]⟩ .f32) (b : FVec Ideal ⟨1, ![N]⟩ .f32) : FVec Ideal ⟨2, ![M, N]⟩ .f32 :=
  fun i => A i + b (ix1 (i 1))

theorem mm_apply (x : FVec Ideal ⟨2, ![M, K]⟩ .f32) (w : FVec Ideal ⟨2, ![K, N]⟩ .f32) (p : Fin M) (q : Fin N) :
    mm x w (ix2 p q) = ∑ k : Fin K, x (ix2 p k) * w (ix2 k q) := rfl

theorem reluBias_apply (A : FVec Ideal ⟨2, ![M, K]⟩ .f32) (b : FVec Ideal ⟨1, ![K]⟩ .f32) (p : Fin M) (j : Fin K) :
    reluBias A b (ix2 p j) = max (A (ix2 p j) + b (ix1 j)) 0 := rfl

theorem addBias_apply (A : FVec Ideal ⟨2, ![M, N]⟩ .f32) (b : FVec Ideal ⟨1, ![N]⟩ .f32) (p : Fin M) (q : Fin N) :
    addBias A b (ix2 p q) = A (ix2 p q) + b (ix1 q) := rfl

/-- The host's dot_general with the plain product's dimension numbers is the matrix product. -/
theorem host_mm (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (prec : Option ContractPrecision) :
    Host.dotGeneral d prec x w = mm x w := by
  funext i
  obtain ⟨p, q, rfl⟩ : ∃ (p : Fin M) (q : Fin N), i = ix2 p q := ⟨i 0, i 1, eq_ix2 i⟩
  exact Bilinear.Host.dot_apply d h1 h2 h3 h4 h5 h6 x w prec p q

/-- The host's bias row broadcast down the rows and added is the bias added to every row. -/
theorem host_addBias (hb1 : (⟨1, ![N]⟩ : Shape).BroadcastsInDim ⟨2, ![1, N]⟩ ![1])
    (hb2 : (⟨2, ![1, N]⟩ : Shape).BroadcastsInDim ⟨2, ![M, N]⟩ ![0, 1])
    (A : FVec Ideal ⟨2, ![M, N]⟩ .f32) (b : FVec Ideal ⟨1, ![N]⟩ .f32) :
    addf A (broadcastInDim ⟨2, ![M, N]⟩ ![0, 1] hb2 (broadcastInDim ⟨2, ![1, N]⟩ ![1] hb1 b)) = addBias A b := by
  funext i
  obtain ⟨p, q, rfl⟩ : ∃ (p : Fin M) (q : Fin N), i = ix2 p q := ⟨i 0, i 1, eq_ix2 i⟩
  show A (ix2 p q) + _ = _
  rw [Hmu.Lib.bcastCols_apply]
  rfl

/-- The host's bias add followed by the maximum with a broadcast zero is the bias and the rectifier. -/
theorem host_reluBias (hb1 : (⟨1, ![K]⟩ : Shape).BroadcastsInDim ⟨2, ![1, K]⟩ ![1])
    (hb2 : (⟨2, ![1, K]⟩ : Shape).BroadcastsInDim ⟨2, ![M, K]⟩ ![0, 1])
    (h0 : (⟨0, ![]⟩ : Shape).BroadcastsInDim ⟨2, ![M, K]⟩ ![])
    (A : FVec Ideal ⟨2, ![M, K]⟩ .f32) (b : FVec Ideal ⟨1, ![K]⟩ .f32) :
    maximumf (addf A (broadcastInDim ⟨2, ![M, K]⟩ ![0, 1] hb2 (broadcastInDim ⟨2, ![1, K]⟩ ![1] hb1 b)))
        (broadcastInDim ⟨2, ![M, K]⟩ ![] h0 (constant (F := Ideal) ⟨0, ![]⟩ .f32 0x00000000#32))
      = reluBias A b := by
  funext i
  obtain ⟨p, j, rfl⟩ : ∃ (p : Fin M) (j : Fin K), i = ix2 p j := ⟨i 0, i 1, eq_ix2 i⟩
  show max (A (ix2 p j) + _) _ = _
  rw [Hmu.Lib.bcastCols_apply, Hmu.Lib.bcast_const_apply, Ideal.ofBits_zero_f32]
  rfl

/-- A broadcast f32 zero reads 0 everywhere. -/
theorem host_zero_apply {T : Shape} (h : (⟨0, ![]⟩ : Shape).BroadcastsInDim T ![]) (j : T.Idx) :
    broadcastInDim T ![] h (constant (F := Ideal) ⟨0, ![]⟩ .f32 0x00000000#32) j = 0 := by
  rw [Hmu.Lib.bcast_const_apply, Ideal.ofBits_zero_f32]

end GcnDense

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.LibNormalizedAgg.lean ====
/-
  Two arrangements of a degree-normalized neighbourhood sum.

  A table H : [N, C] of node features is aggregated along E edges: edge e reads row s(e) of the table and adds into row
  d(e) of the result, scaled by w(s(e)) * w(d(e)) for a per-node weight w : [N]. One arrangement scales every gathered row
  by the product of the two weights before the accumulating scatter. The other scales the table by w before the gather and
  scales the aggregated table by w after the scatter, which moves the factor w(d) out of the sum over the edges that land on
  row d. On the extended reals moving a factor out of a sum needs the factor to be a nonnegative number other than +infinity,
  or the sum to be empty; that is the hypothesis on the weights below, and nothing is asked of the table.

  The edge columns are [E, 1] index arrays as the host's gather and scatter take them: a gather clamps its signed start
  index into [0, N - 1], a scatter drops an update whose signed index is outside [0, N).
-/
import Idealize.ShloMosaic.PureOps.Ideal
import Idealize.ShloMosaic.Lib.ValueIdx
import proofs.«168526_j29119878267593_2_alg».proof.Proof.LibGatherScatter
import proofs.«168526_j29119878267593_2_alg».proof.Proof.LibHostRead

noncomputable section

open scoped BigOperators

namespace NormalizedAgg

open Idealize.ShloMosaic Idealize.ShloMosaic.ValueIdx

/-! ## The law on the extended reals -/

/-- A finite sum times a nonnegative factor other than +infinity is the sum of the products. -/
theorem sum_mul_of_nonneg_of_ne_top {ι : Type} (A : Finset ι) (f : ι → EReal) {c : EReal} (h0 : 0 ≤ c) (ht : c ≠ ⊤) :
    (∑ j ∈ A, f j) * c = ∑ j ∈ A, f j * c := by
  classical
  induction A using Finset.induction_on with
  | empty => simp
  | insert a s ha ih =>
    rw [Finset.sum_insert ha, Finset.sum_insert ha, EReal.right_distrib_of_nonneg_of_ne_top h0 ht, ih]

/-- The factor common to every term of a sum started from zero moves out of it, when it is a nonnegative number other than
    +infinity or when the sum is empty. -/
theorem factor_out {ι : Type} (A : Finset ι) (a p q : ι → EReal) (c : EReal)
    (hq : ∀ j ∈ A, q j = c) (hc : (0 ≤ c ∧ c ≠ ⊤) ∨ A = ∅) :
    (0 + ∑ j ∈ A, a j * p j) * c = 0 + ∑ j ∈ A, a j * (p j * q j) := by
  rcases hc with ⟨h0, ht⟩ | hA
  · rw [zero_add, zero_add, sum_mul_of_nonneg_of_ne_top A _ h0 ht]
    refine Finset.sum_congr rfl fun j hj => ?_
    rw [hq j hj, mul_assoc]
  · subst hA
    simp

/-! ## The two arrangements as the host computes them -/

/-- The row a gather reads for edge e: the signed index word clamped into [0, N - 1]. -/
def row {N E : ℕ} (hN : 0 < N) (idx : IVec ⟨2, ![E, 1]⟩ 32) (e : Fin E) : Fin N :=
  ⟨min (idx (ix2 e 0)).toInt.toNat (N - 1), by omega⟩

/-- Scaling the table before the gather and the aggregate after the scatter equals scaling every gathered row by the
    product of the two gathered weights. dst holds the raw scatter indices, dstW and srcW the indices the gathers read
    (an edge that lands on row n has the same index in dstW); a weight is a nonnegative number other than +infinity
    wherever some edge's dstW index is the row. -/
theorem scale_around_eq_scale_edges {N E C : ℕ} (hN : 0 < N)
    (dS : ScatterDims ⟨2, ![N, C]⟩ ⟨2, ![E, 1]⟩ ⟨2, ![E, C]⟩)
    (hS1 : dS.updateWindowDims = [1]) (hS2 : dS.insertedWindowDims = [0]) (hS3 : dS.scatterDimsToOperandDims = [0])
    (hS4 : dS.indexVectorDim = 1)
    (dG : GatherDims ⟨2, ![N, C]⟩ ⟨2, ![E, 1]⟩ ⟨2, ![E, C]⟩)
    (hG1 : dG.offsetDims = [1]) (hG2 : dG.collapsedSliceDims = [0]) (hG3 : dG.operandBatchingDims = [])
    (hG4 : dG.startIndexMap = [0]) (hG5 : dG.indexVectorDim = 1) (hG6 : dG.sliceSizes = ![1, C])
    (dg : GatherDims ⟨1, ![N]⟩ ⟨2, ![E, 1]⟩ ⟨1, ![E]⟩)
    (hg1 : dg.offsetDims = []) (hg2 : dg.collapsedSliceDims = [0]) (hg3 : dg.operandBatchingDims = [])
    (hg4 : dg.startIndexMap = [0]) (hg5 : dg.indexVectorDim = 1) (hg6 : dg.sliceSizes = ![1])
    (hbN1 : (⟨1, ![N]⟩ : Shape).BroadcastsInDim ⟨2, ![N, 1]⟩ ![0])
    (hbNC hbNC' : (⟨2, ![N, 1]⟩ : Shape).BroadcastsInDim ⟨2, ![N, C]⟩ ![0, 1])
    (hbE1 : (⟨1, ![E]⟩ : Shape).BroadcastsInDim ⟨2, ![E, 1]⟩ ![0])
    (hbEC : (⟨2, ![E, 1]⟩ : Shape).BroadcastsInDim ⟨2, ![E, C]⟩ ![0, 1])
    (Z : FVec Ideal ⟨2, ![N, C]⟩ .f32) (hZ : ∀ i, Z i = 0)
    (w : FVec Ideal ⟨1, ![N]⟩ .f32) (srcW dstW dst : IVec ⟨2, ![E, 1]⟩ 32)
    (hwrap : ∀ (e : Fin E) (n : Fin N), (dst (ix2 e 0)).toInt = (n.val : Int) → (dstW (ix2 e 0)).toInt = (n.val : Int))
    (hw : ∀ n : Fin N, (0 ≤ w (ix1 n) ∧ w (ix1 n) ≠ ⊤) ∨ ∀ e : Fin E, (dstW (ix2 e 0)).toInt ≠ (n.val : Int))
    (H : FVec Ideal ⟨2, ![N, C]⟩ .f32) :
    mulf (Host.scatterAdd dS Z dst
        (Host.gather dG (mulf H (broadcastInDim ⟨2, ![N, C]⟩ ![0, 1] hbNC (broadcastInDim ⟨2, ![N, 1]⟩ ![0] hbN1 w))) srcW))
      (broadcastInDim ⟨2, ![N, C]⟩ ![0, 1] hbNC' (broadcastInDim ⟨2, ![N, 1]⟩ ![0] hbN1 w))
    = Host.scatterAdd dS Z dst
        (mulf (Host.gather dG H srcW)
          (broadcastInDim ⟨2, ![E, C]⟩ ![0, 1] hbEC (broadcastInDim ⟨2, ![E, 1]⟩ ![0] hbE1
            (mulf (Host.gather dg w srcW) (Host.gather dg w dstW))))) := by
  funext i
  obtain ⟨n, c, rfl⟩ : ∃ (n : Fin N) (c : Fin C), i = ix2 n c := ⟨i 0, i 1, eq_ix2 i⟩
  show Host.scatterAdd dS Z dst _ (ix2 n c) * _ = _
  rw [Hmu.Lib.bcastRows_apply, Pegcn.Lib.scatterAdd2_apply dS hS1 hS2 hS3 hS4, Pegcn.Lib.scatterAdd2_apply dS hS1 hS2 hS3 hS4,
    hZ]
  have hL : ∀ j : (⟨2, ![E, C]⟩ : Shape).Idx,
      Host.gather dG (mulf H (broadcastInDim ⟨2, ![N, C]⟩ ![0, 1] hbNC (broadcastInDim ⟨2, ![N, 1]⟩ ![0] hbN1 w))) srcW j
        = H (ix2 (row hN srcW (j 0)) (j 1)) * w (ix1 (row hN srcW (j 0))) := by
    intro j
    obtain ⟨e, c', rfl⟩ : ∃ (e : Fin E) (c' : Fin C), j = ix2 e c' := ⟨j 0, j 1, eq_ix2 j⟩
    rw [Pegcn.Lib.gather2_apply hN dG hG1 hG2 hG3 hG4 hG5 hG6]
    show H _ * _ = _
    rw [Hmu.Lib.bcastRows_apply]
    rfl
  have hR : ∀ j : (⟨2, ![E, C]⟩ : Shape).Idx,
      mulf (Host.gather dG H srcW)
          (broadcastInDim ⟨2, ![E, C]⟩ ![0, 1] hbEC (broadcastInDim ⟨2, ![E, 1]⟩ ![0] hbE1
            (mulf (Host.gather dg w srcW) (Host.gather dg w dstW)))) j
        = H (ix2 (row hN srcW (j 0)) (j 1)) * (w (ix1 (row hN srcW (j 0))) * w (ix1 (row hN dstW (j 0)))) := by
    intro j
    obtain ⟨e, c', rfl⟩ : ∃ (e : Fin E) (c' : Fin C), j = ix2 e c' := ⟨j 0, j 1, eq_ix2 j⟩
    show Host.gather dG H srcW (ix2 e c') * _ = _
    rw [Hmu.Lib.bcastRows_apply, Pegcn.Lib.gather2_apply hN dG hG1 hG2 hG3 hG4 hG5 hG6]
    show _ * (Host.gather dg w srcW (ix1 e) * Host.gather dg w dstW (ix1 e)) = _
    rw [Pegcn.Lib.gather1_apply hN dg hg1 hg2 hg3 hg4 hg5 hg6, Pegcn.Lib.gather1_apply hN dg hg1 hg2 hg3 hg4 hg5 hg6]
    rfl
  simp only [hL, hR]
  refine factor_out (Finset.univ.filter fun j : (⟨2, ![E, C]⟩ : Shape).Idx =>
      (dst (ix2 (j 0) 0)).toInt = (n.val : Int) ∧ (j 1).val = c.val)
    (fun j => H (ix2 (row hN srcW (j 0)) (j 1))) (fun j => w (ix1 (row hN srcW (j 0))))
    (fun j => w (ix1 (row hN dstW (j 0)))) (w (ix1 n)) (fun j hj => ?_) ?_
  · have hW := hwrap (j 0) n (Finset.mem_filter.mp hj).2.1
    show w (ix1 (row hN dstW (j 0))) = w (ix1 n)
    rw [show row hN dstW (j 0) = n from Pegcn.Lib.clamp_fin_eq _ n hW _]
  · rcases hw n with h | h
    · exact Or.inl h
    · refine Or.inr (Finset.filter_eq_empty_iff.mpr fun j _ hj => ?_)
      exact h (j 0) (hwrap (j 0) n hj.1)

end NormalizedAgg

end
-- ==== Proof.LibScatterCount.lean ====
/-
  Counting with a scatter.

  Scattering a constant one, with addition, into an operand counts, at each operand index i, the update indices that land at
  i. This is so for the left fold over the update indices with the wrapping integer addition (the count then read modulo the
  word size) and for the accumulating float scatter at the ideal instance (the count then read as a real). Both counts are of
  one and the same set, for ANY dimension-number record and any index array: where an update lands is used only as an opaque
  function of the update index. A count below 2^31 passes exactly through the signed conversions between a 32-bit word and a
  float, so the two scatters agree after either conversion.
-/
import Idealize.ShloMosaic.PureOps.Ideal
import Idealize.ShloMosaic.PureOps.Contract

noncomputable section

open scoped BigOperators

namespace ScatterCount

open Idealize.ShloMosaic

/-! ## The count -/

/-- The number of update indices that land at operand index i. -/
def count {s si u : Shape} (d : ScatterDims s si u) {w : Nat} (idx : IVec si w) (i : s.Idx) : Nat :=
  (Finset.univ.filter (fun j : u.Idx => d.resultIdx? j idx = some i)).card

/-- The count, unfolded. -/
theorem count_def {s si u : Shape} (d : ScatterDims s si u) {w : Nat} (idx : IVec si w) (i : s.Idx) :
    count d idx i = (Finset.univ.filter (fun j : u.Idx => d.resultIdx? j idx = some i)).card := rfl

/-- No more updates land at an index than there are updates. -/
theorem count_le_numel {s si u : Shape} (d : ScatterDims s si u) {w : Nat} (idx : IVec si w) (i : s.Idx) :
    count d idx i ≤ u.numel :=
  (Finset.card_le_univ _).trans_eq u.card_idx

/-! ## The integer fold counts -/

/-- The fold of the scatter's step over ANY list of update positions, the update a constant one and the body the wrapping
    addition, read at i: the start value at i plus the number of listed positions that land at i. -/
private theorem foldl_count {s si u : Shape} (d : ScatterDims s si u) {w m : Nat} (idx : IVec si w) (i : s.Idx)
    (l : List (Fin u.numel)) (x : s.Idx → BitVec m) :
    l.foldl (fun r n =>
        match d.resultIdx? (u.rowMajor.symm n) idx with
        | some k => fun i' => if i' = k then IntOp.addi (r k) 1#m else r i'
        | none => r) x i
      = x i + BitVec.ofNat m (l.countP fun n => decide (d.resultIdx? (u.rowMajor.symm n) idx = some i)) := by
  induction l generalizing x with
  | nil => simp
  | cons n l ih =>
    rw [List.foldl_cons, ih, List.countP_cons]
    cases hk : d.resultIdx? (u.rowMajor.symm n) idx with
    | none =>
      simp only [reduceCtorEq, decide_false, Bool.false_eq_true, if_false, Nat.add_zero]
    | some k =>
      by_cases hik : i = k
      · subst hik
        simp only [if_true, decide_true, IntOp.addi, BitVec.ofNat_add]
        ac_rfl
      · have hki : ¬ (some k = some i) := fun h => hik (Option.some.inj h).symm
        simp only [if_neg hik, hki, decide_false, Bool.false_eq_true, if_false, Nat.add_zero]

/-- Over all the positions in order, the number of those that land at i is the count. -/
private theorem countP_finRange {s si u : Shape} (d : ScatterDims s si u) {w : Nat} (idx : IVec si w) (i : s.Idx) :
    (List.finRange u.numel).countP (fun n => decide (d.resultIdx? (u.rowMajor.symm n) idx = some i))
      = count d idx i := by
  unfold count
  rw [List.countP_eq_length_filter, ← List.toFinset_card_of_nodup ((List.nodup_finRange _).filter _),
    List.toFinset_filter, List.toFinset_finRange]
  refine Finset.card_equiv u.rowMajor.symm fun n => ?_
  simp only [Finset.mem_filter, Finset.mem_univ, true_and, decide_eq_true_eq]

/-- Scattering a constant one with the wrapping integer addition: the operand at i plus the count, as a word. -/
theorem scatter_addi_one {s si u : Shape} (d : ScatterDims s si u) {w m : Nat} (x : s.Idx → BitVec m) (idx : IVec si w)
    (i : s.Idx) :
    Host.scatter d IntOp.addi x idx (fun _ => 1#m) i = x i + BitVec.ofNat m (count d idx i) := by
  rw [← countP_finRange]
  exact foldl_count d idx i _ x

/-! ## The float scatter counts -/

/-- A sum of ones over a finite set is its number of elements, as an extended real. -/
private theorem sum_one_eq_card {ι : Type} (A : Finset ι) : (∑ _j ∈ A, (1 : EReal)) = (((A.card : ℕ) : ℝ) : EReal) := by
  rw [Finset.sum_const, ← EReal.coe_one, ← EReal.coe_nsmul, nsmul_eq_mul, mul_one]

/-- The accumulating scatter of a constant one at the ideal instance: the operand at i plus the count, as a real. -/
theorem scatterAdd_one {s si u : Shape} {φ : FTy} (d : ScatterDims s si u) {w : Nat} (x : FVec Ideal s φ)
    (idx : IVec si w) (i : s.Idx) :
    Host.scatterAdd d x idx (fun _ => (1 : EReal)) i = x i + (((count d idx i : ℕ) : ℝ) : EReal) := by
  show Ideal.hostScatterAdd d x idx (fun _ => (1 : EReal)) i = _
  unfold Ideal.hostScatterAdd count
  rw [sum_one_eq_card]

/-! ## A small count passes exactly through the signed conversions -/

/-- A natural number below 2^31, as a 32-bit word, reads back signed as itself. -/
theorem toInt_ofNat_of_lt (c : ℕ) (hc : c < 2 ^ 31) : (BitVec.ofNat 32 c).toInt = (c : Int) := by
  have hn : (BitVec.ofNat 32 c).toNat = c := by
    rw [BitVec.toNat_ofNat]
    omega
  rw [BitVec.toInt_eq_toNat_of_lt (by rw [hn]; omega), hn]

/-- The signed conversion of a small count to a float is the count. -/
theorem sitofp_ofNat_of_lt {φ : FTy} (c : ℕ) (hc : c < 2 ^ 31) :
    Scalar.sitofp (F := Ideal) φ (BitVec.ofNat 32 c) = ((c : ℝ) : EReal) := by
  rw [Ideal.scalar_sitofp_def, toInt_ofNat_of_lt c hc, Int.cast_natCast]

/-- The signed conversion of a small count, as a real, to a 32-bit word is the count: a natural number is its own
    truncation, and the clamp to the signed range is inactive. -/
theorem fptosi_natCast_of_lt (c : ℕ) (hc : c < 2 ^ 31) : Ideal.fptosi 32 ((c : ℝ) : EReal) = BitVec.ofNat 32 c := by
  unfold Ideal.fptosi
  rw [Ideal.toIntClamped_coe, if_pos (Nat.cast_nonneg c), Int.floor_natCast]
  have h1 : ((2 ^ (32 - 1) : ℕ) : Int) = 2147483648 := by norm_num
  rw [h1, min_eq_right (by omega), max_eq_right (by omega), BitVec.ofInt_natCast]

/-! ## The two scatters of ones agree -/

/-- The integer scatter of ones into zeros, converted to a float, is the count. -/
theorem sitofp_scatter_addi_one {s si u : Shape} {φ : FTy} (d : ScatterDims s si u) {w : Nat} (idx : IVec si w)
    (i : s.Idx) (hu : u.numel < 2 ^ 31) :
    Scalar.sitofp (F := Ideal) φ (Host.scatter d IntOp.addi (fun _ => 0#32) idx (fun _ => 1#32) i)
      = (((count d idx i : ℕ) : ℝ) : EReal) := by
  rw [scatter_addi_one, BitVec.zero_add]
  exact sitofp_ofNat_of_lt _ (lt_of_le_of_lt (count_le_numel d idx i) hu)

/-- The float scatter of ones into zeros is the count. -/
theorem scatterAdd_zero_one {s si u : Shape} {φ : FTy} (d : ScatterDims s si u) {w : Nat} (idx : IVec si w)
    (i : s.Idx) :
    Host.scatterAdd (F := Ideal) (φ := φ) d (fun _ => (0 : EReal)) idx (fun _ => (1 : EReal)) i
      = (((count d idx i : ℕ) : ℝ) : EReal) := by
  rw [scatterAdd_one, zero_add]

/-- The float scatter of ones into zeros, converted to a 32-bit word, is the integer scatter of ones into zeros. -/
theorem fptosi_scatterAdd_zero_one {s si u : Shape} {φ : FTy} (d : ScatterDims s si u) {w : Nat} (idx : IVec si w)
    (i : s.Idx) (hu : u.numel < 2 ^ 31) :
    Ideal.fptosi 32 (Host.scatterAdd (F := Ideal) (φ := φ) d (fun _ => (0 : EReal)) idx (fun _ => (1 : EReal)) i)
      = Host.scatter d IntOp.addi (fun _ => 0#32) idx (fun _ => 1#32) i := by
  rw [scatterAdd_zero_one, scatter_addi_one, BitVec.zero_add]
  exact fptosi_natCast_of_lt _ (lt_of_le_of_lt (count_le_numel d idx i) hu)

end ScatterCount

end
-- ==== Proof.GcnSpec.lean ====
/-
  The sparse layer in its two arrangements over this graph's edge columns, and why they agree.

  The edge list is the 1,600,000 given edges followed by one self-loop per node; src and dst are its two columns. A gather
  reads row src(e) (a negative index first wrapped by adding 100000, then clamped into the array), the segment sum adds into
  row dst(e) (raw: an index outside [0, 100000) is dropped), and the degree counts, per node, the edges whose wrapped dst is
  that node; the weight of a node is the inverse square root of its degree.

  An edge that the segment sum lands on row n has a raw dst equal to n, which is not negative, so its wrapped dst is n too:
  the weight the reference gathers at dst(e) is the weight of n. And where some wrapped dst is n the degree is a positive
  count, whose inverse root is a nonnegative real; where none is, no edge lands on n and both arrangements sum nothing. These
  are the two hypotheses of the law that moves the weight of n out of the sum, so scaling the table before the gather and the
  aggregate after the scatter (the kernel's arrangement) equals scaling each gathered row by the two gathered weights (the
  reference's), for any table whatever.
-/
import proofs.«168526_j29119878267593_2_alg».proof.Proof.Gen.KernelIdeal
import proofs.«168526_j29119878267593_2_alg».proof.Proof.Gen.ReferenceIdeal.Read
import proofs.«168526_j29119878267593_2_alg».proof.Proof.DenseForms
import proofs.«168526_j29119878267593_2_alg».proof.Proof.LibNormalizedAgg
import proofs.«168526_j29119878267593_2_alg».proof.Proof.LibScatterCount

set_option maxRecDepth 16384

noncomputable section

open scoped BigOperators

namespace GcnSpec

open Idealize.ShloMosaic Idealize.ShloMosaic.ValueIdx
open Cert.ReferenceIdeal Cert.ReferenceIdeal.Gen Cert.ReferenceIdeal.Read

/-- The edge array's contents. -/
abbrev Edges : Type := (⟨S2x1600000, .i32⟩ : BufTy).Contents (Elt Ideal)

/-! ## The columns -/

/-- The raw scatter column reads the dst list. -/
theorem rawcol_apply (x1 : Edges) (e : Fin 1700000) :
    val_main_v44 (F := Ideal) x1 (ix2 e 0) = val_main_v6 (F := Ideal) x1 (ix1 e) :=
  Hmu.Lib.bcast_a_a1_apply (val_main_v6 (F := Ideal) x1) bcast_S1700000_S1700000x1_0 e 0

/-- The wrapped dst column reads the dst list where that is not negative. -/
theorem wrapcol_apply (x1 : Edges) (e : Fin 1700000) (h : 0 ≤ (val_main_v6 (F := Ideal) x1 (ix1 e)).toInt) :
    val_main_v30 (F := Ideal) x1 (ix2 e 0) = val_main_v6 (F := Ideal) x1 (ix1 e) :=
  (Hmu.Lib.bcast_a_a1_apply (val_main_v29 (F := Ideal) x1) bcast_S1700000_S1700000x1_0 e 0).trans
    (Pegcn.Lib.wrap_bcast_apply (s0 := S_) (s := S1700000) (![] : Fin 0 → Fin 1) bcast_S_S1700000 bcast_S_S1700000
      (val_main_v6 (F := Ideal) x1) 100000#32 (ix1 e) h)

/-- An edge whose raw dst is row n has wrapped dst n. -/
theorem wrap_of_raw (x1 : Edges) (e : Fin 1700000) (n : Fin 100000)
    (h : (val_main_v44 (F := Ideal) x1 (ix2 e 0)).toInt = (n.val : Int)) :
    (val_main_v30 (F := Ideal) x1 (ix2 e 0)).toInt = (n.val : Int) := by
  rw [rawcol_apply] at h
  rw [wrapcol_apply x1 e (by omega)]
  exact h

/-! ## The weights -/

/-- The f32 word of 1.0 denotes 1. -/
theorem ofBits_one_f32 : Ideal.ofBits .f32 0x3F800000#32 = 1 := by
  simp [Ideal.ofBits, Ideal.ieee, -EReal.coe_mul]; norm_num

/-- The degree of node n: the number of edges whose wrapped dst is n, as a real. -/
theorem degree_apply (x1 : Edges) (n : Fin 100000) :
    val_main_v16 (F := Ideal) x1 (ix1 n)
      = (((ScatterCount.count scatter_S100000_S1700000x1_S1700000_n_0_0_1 (val_main_v14 (F := Ideal) x1) (ix1 n) : ℕ) : ℝ) : EReal) := by
  have hB : val_main_v16 (F := Ideal) x1
      = Host.scatterAdd (F := Ideal) (φ := .f32) scatter_S100000_S1700000x1_S1700000_n_0_0_1 (val_main_v8 (F := Ideal))
          (val_main_v14 (F := Ideal) x1) (val_main_v15 (F := Ideal)) := rfl
  have h0 : (val_main_v8 (F := Ideal)) = fun _ => (0 : EReal) := by
    funext j
    exact (Hmu.Lib.bcast_const_apply _ bcast_S_S100000 j).trans Ideal.ofBits_zero_f32
  have h1 : (val_main_v15 (F := Ideal)) = fun _ => (1 : EReal) := by
    funext j
    exact (Hmu.Lib.bcast_const_apply _ bcast_S_S1700000 j).trans ofBits_one_f32
  rw [hB, h0, h1]
  exact ScatterCount.scatterAdd_zero_one _ _ _

/-- The weight of a node is a nonnegative number other than +infinity, unless no edge's wrapped dst is the node. -/
theorem weight_fact (x1 : Edges) (n : Fin 100000) :
    (0 ≤ val_main_v17 (F := Ideal) x1 (ix1 n) ∧ val_main_v17 (F := Ideal) x1 (ix1 n) ≠ ⊤)
      ∨ ∀ e : Fin 1700000, (val_main_v30 (F := Ideal) x1 (ix2 e 0)).toInt ≠ (n.val : Int) := by
  have hw : val_main_v17 (F := Ideal) x1 (ix1 n) = Ideal.rsqrt (val_main_v16 (F := Ideal) x1 (ix1 n)) :=
    Hmu.Lib.hostRsqrt_apply (val_main_v16 (F := Ideal) x1) (ix1 n)
  rw [hw, degree_apply]
  rcases Nat.eq_zero_or_pos (ScatterCount.count scatter_S100000_S1700000x1_S1700000_n_0_0_1 (val_main_v14 (F := Ideal) x1) (ix1 n)) with h | h
  · right
    intro e he
    have hempty := Finset.card_eq_zero.mp h
    have hmem : (ix1 e : S1700000.Idx) ∈ Finset.univ.filter (fun j : S1700000.Idx =>
        scatter_S100000_S1700000x1_S1700000_n_0_0_1.resultIdx? j (val_main_v14 (F := Ideal) x1) = some (ix1 n)) := by
      refine Finset.mem_filter.mpr ⟨Finset.mem_univ _, ?_⟩
      exact (Pegcn.Lib.scatter1_lands_iff scatter_S100000_S1700000x1_S1700000_n_0_0_1 rfl rfl rfl rfl
        (val_main_v14 (F := Ideal) x1) e n).mpr he
    rw [hempty] at hmem
    exact absurd hmem (Finset.notMem_empty _)
  · left
    have hpos : (0 : ℝ) < ((ScatterCount.count scatter_S100000_S1700000x1_S1700000_n_0_0_1 (val_main_v14 (F := Ideal) x1) (ix1 n) : ℕ) : ℝ) :=
      Nat.cast_pos.mpr h
    rw [Ideal.rsqrt_coe, if_neg (not_lt.mpr hpos.le), if_neg hpos.ne']
    exact ⟨EReal.coe_nonneg.mpr (inv_nonneg.mpr (Real.sqrt_nonneg _)), EReal.coe_ne_top _⟩

/-! ## The two arrangements of a sparse layer -/

/-- The kernel's arrangement over 64 feature columns: scale the table by the weights, gather, segment-sum, scale again. -/
def kerLayer64 (x1 : Edges) (H : FVec Ideal S100000x64 .f32) : FVec Ideal S100000x64 .f32 :=
  mulf (Host.scatterAdd (F := Ideal) (φ := .f32) scatter_S100000x64_S1700000x1_S1700000x64_1_0_0_1 (val_main_v43 (F := Ideal))
      (val_main_v44 (F := Ideal) x1)
      (Host.gather gather_S100000x64_S1700000x1_S1700000x64_1_0_n_n_0_1_164
        (mulf H (broadcastInDim S100000x64 ![0, 1] Cert.KernelIdeal.Gen.bcast_S100000x1_S100000x64_0_1
          (broadcastInDim Cert.KernelIdeal.S100000x1 ![0] Cert.KernelIdeal.Gen.bcast_S100000_S100000x1_0 (val_main_v17 (F := Ideal) x1))))
        (val_main_v38 (F := Ideal) x1)))
    (broadcastInDim S100000x64 ![0, 1] Cert.KernelIdeal.Gen.bcast_S100000x1_S100000x64_0_1
      (broadcastInDim Cert.KernelIdeal.S100000x1 ![0] Cert.KernelIdeal.Gen.bcast_S100000_S100000x1_0 (val_main_v17 (F := Ideal) x1)))

/-- The reference's arrangement over 64 feature columns: gather, scale every row by the two gathered weights, segment-sum. -/
def refLayer64 (x1 : Edges) (H : FVec Ideal S100000x64 .f32) : FVec Ideal S100000x64 .f32 :=
  Host.scatterAdd (F := Ideal) (φ := .f32) scatter_S100000x64_S1700000x1_S1700000x64_1_0_0_1 (val_main_v43 (F := Ideal))
    (val_main_v44 (F := Ideal) x1)
    (mulf (Host.gather gather_S100000x64_S1700000x1_S1700000x64_1_0_n_n_0_1_164 H (val_main_v38 (F := Ideal) x1))
      (val_main_v41 (F := Ideal) x1))

/-- The kernel's arrangement over 32 feature columns. -/
def kerLayer32 (x1 : Edges) (H : FVec Ideal S100000x32 .f32) : FVec Ideal S100000x32 .f32 :=
  mulf (Host.scatterAdd (F := Ideal) (φ := .f32) scatter_S100000x32_S1700000x1_S1700000x32_1_0_0_1 (val_main_v86 (F := Ideal))
      (val_main_v87 (F := Ideal) x1)
      (Host.gather gather_S100000x32_S1700000x1_S1700000x32_1_0_n_n_0_1_132
        (mulf H (broadcastInDim S100000x32 ![0, 1] Cert.KernelIdeal.Gen.bcast_S100000x1_S100000x32_0_1
          (broadcastInDim Cert.KernelIdeal.S100000x1 ![0] Cert.KernelIdeal.Gen.bcast_S100000_S100000x1_0 (val_main_v17 (F := Ideal) x1))))
        (val_main_v81 (F := Ideal) x1)))
    (broadcastInDim S100000x32 ![0, 1] Cert.KernelIdeal.Gen.bcast_S100000x1_S100000x32_0_1
      (broadcastInDim Cert.KernelIdeal.S100000x1 ![0] Cert.KernelIdeal.Gen.bcast_S100000_S100000x1_0 (val_main_v17 (F := Ideal) x1)))

/-- The reference's arrangement over 32 feature columns. -/
def refLayer32 (x1 : Edges) (H : FVec Ideal S100000x32 .f32) : FVec Ideal S100000x32 .f32 :=
  Host.scatterAdd (F := Ideal) (φ := .f32) scatter_S100000x32_S1700000x1_S1700000x32_1_0_0_1 (val_main_v86 (F := Ideal))
    (val_main_v87 (F := Ideal) x1)
    (mulf (Host.gather gather_S100000x32_S1700000x1_S1700000x32_1_0_n_n_0_1_132 H (val_main_v81 (F := Ideal) x1))
      (val_main_v84 (F := Ideal) x1))

/-- Over 64 columns the two arrangements agree, for any table. -/
theorem layer64_eq (x1 : Edges) (H : FVec Ideal S100000x64 .f32) : kerLayer64 x1 H = refLayer64 x1 H := by
  unfold kerLayer64 refLayer64
  exact NormalizedAgg.scale_around_eq_scale_edges (N := 100000) (E := 1700000) (C := 64) (by omega)
    scatter_S100000x64_S1700000x1_S1700000x64_1_0_0_1 rfl rfl rfl rfl
    gather_S100000x64_S1700000x1_S1700000x64_1_0_n_n_0_1_164 rfl rfl rfl rfl rfl rfl
    gather_S100000_S1700000x1_S1700000_n_0_n_n_0_1_1 rfl rfl rfl rfl rfl rfl
    Cert.KernelIdeal.Gen.bcast_S100000_S100000x1_0 Cert.KernelIdeal.Gen.bcast_S100000x1_S100000x64_0_1
    Cert.KernelIdeal.Gen.bcast_S100000x1_S100000x64_0_1 bcast_S1700000_S1700000x1_0 bcast_S1700000x1_S1700000x64_0_1
    (val_main_v43 (F := Ideal)) (fun i => GcnDense.host_zero_apply bcast_S_S100000x64 i)
    (val_main_v17 (F := Ideal) x1) (val_main_v38 (F := Ideal) x1) (val_main_v30 (F := Ideal) x1) (val_main_v44 (F := Ideal) x1)
    (wrap_of_raw x1) (weight_fact x1) H

/-- Over 32 columns the two arrangements agree, for any table. -/
theorem layer32_eq (x1 : Edges) (H : FVec Ideal S100000x32 .f32) : kerLayer32 x1 H = refLayer32 x1 H := by
  unfold kerLayer32 refLayer32
  exact NormalizedAgg.scale_around_eq_scale_edges (N := 100000) (E := 1700000) (C := 32) (by omega)
    scatter_S100000x32_S1700000x1_S1700000x32_1_0_0_1 rfl rfl rfl rfl
    gather_S100000x32_S1700000x1_S1700000x32_1_0_n_n_0_1_132 rfl rfl rfl rfl rfl rfl
    gather_S100000_S1700000x1_S1700000_n_0_n_n_0_1_1 rfl rfl rfl rfl rfl rfl
    Cert.KernelIdeal.Gen.bcast_S100000_S100000x1_0 Cert.KernelIdeal.Gen.bcast_S100000x1_S100000x32_0_1
    Cert.KernelIdeal.Gen.bcast_S100000x1_S100000x32_0_1 bcast_S1700000_S1700000x1_0 bcast_S1700000x1_S1700000x32_0_1
    (val_main_v86 (F := Ideal)) (fun i => GcnDense.host_zero_apply bcast_S_S100000x32 i)
    (val_main_v17 (F := Ideal) x1) (val_main_v38 (F := Ideal) x1) (val_main_v30 (F := Ideal) x1) (val_main_v44 (F := Ideal) x1)
    (wrap_of_raw x1) (weight_fact x1) H

end GcnSpec

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«168526_j29119878267593_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.KernelRegions.lean ====
/-
  What each of the three grid launches leaves in its output array, as one function of the arrays it finds.

  Every launch walks ten grid points; point t takes rows 10000 t .. 10000 t + 9999 of its row-blocked operands and the whole
  of its small operands (a weight matrix, a bias vector), and writes rows 10000 t .. 10000 t + 9999 of the output. The first
  body multiplies its block of x by W1, the second adds b1 to its block, rectifies and multiplies by W2, the third adds b2.
  A block of rows of a matrix product (or of a row-wise bias) is the product (or bias) of that block of rows, so each point
  writes back its block of the whole-array function, and the ten blocks tile the output.
-/
import proofs.«168526_j29119878267593_2_alg».proof.Proof.Gen.KernelIdeal.Frame
import proofs.«168526_j29119878267593_2_alg».proof.Proof.DenseForms
import proofs.«168526_j29119878267593_2_alg».proof.Proof.LibDotRecord
import proofs.«168526_j29119878267593_2_alg».proof.Proof.LibTileOps
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first launch: a block of rows of x times W1 -/

/-- The body's product at entry (p, q) of its tile: the sum over the 128 contracted columns. -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact DotRecord.matmul_zero_apply dot_S10000x128_S128x64_S10000x64_1_0_0_1_n_n rfl rfl rfl rfl rfl rfl _ _ none p q

/-- The index maps over the grid: the row-blocked windows sit at block (t, 0), the weight at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows of a product is the product of the block of rows: the sum over k of X at the block's (p, k) times W at
    (k, q), read through the windows' rectangles at point t, is the product at the output block's (p, q). -/
theorem blockrows0 (X : S100000x128.Idx → EReal) (W : S128x64.Idx → EReal) (t : Fin cfg0.N) (p : Fin 10000) (q : Fin 64) :
    (∑ k : Fin 128, X (((cfg0.win 0).blk t).view.emb (ix2 p k)) * W (((cfg0.win 1).blk t).view.emb (ix2 k q)))
      = GcnDense.mm X W (((cfg0.win 2).blk t).view.emb (ix2 p q)) := by
  obtain ⟨e0, e1, e2, e3, e4, e5⟩ := idx_facts0 t
  show _ = ∑ k : Fin 128, X (ix2 ((((cfg0.win 2).blk t).view.emb (ix2 p q)) 0) k)
      * W (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  have h1 : ((cfg0.win 1).blk t).view.emb (ix2 k q) = ix2 k ((((cfg0.win 2).blk t).view.emb (ix2 p q)) 1) := by
    funext a; apply Fin.ext
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega
  rw [h0, h1]
  rfl

/-- What point t writes back is its block of rows of the product of the arrays the launch finds. -/
theorem flushed0_eq (c : Dev nD) (t : Fin cfg0.N) :
    (dat0 V c).flushed 2 t
      = ((cfg0.win 2).blk t).view.read (Elt Ideal) (GcnDense.mm (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  funext j
  obtain ⟨p, q, rfl⟩ : ∃ (p : Fin 10000) (q : Fin 64), j = ix2 p q := ⟨j 0, j 1, eq_ix2 j⟩
  refine (pay0_apply (iblk0 V c 0 t) (iblk0 V c 1 t) p q).trans ?_
  exact blockrows0 (V c main_arg0) (V c main_arg2) t p q

/-- An index of the output is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v18).slice (win0_2.rect t)).set ↔ _
  rw [View.set_slice_whole, Rect.mem_set_unit]
  exact Iff.rfl

/-- Row r of the output is written by point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := by show _ < grid0.N; rw [N_0]; omega
  refine ⟨⟨(i 0).val / 10000, ht⟩, flush0_2 _, ?_⟩
  obtain ⟨e0, e1, e2, e3, e4, e5⟩ := idx_facts0 ⟨(i 0).val / 10000, ht⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]
    omega

/-- The first launch's output array after the run: the product of the arrays it found. -/
theorem final0 (c : Dev nD) :
    (dat0 V c).arrAt 2 cfg0.N = GcnDense.mm (V c main_arg0) (V c main_arg2) :=
  (dat0 V c).arrAt_eq_of_cover 2 (GcnDense.mm (V c main_arg0) (V c main_arg2)) (fun t _ => flushed0_eq V c t) cover0

/-! ## The second launch: a block of rows plus b1, rectified, times W2 -/

/-- The body's result at entry (p, q) of its tile: the sum over the 64 hidden columns of the rectified biased entry times
    the weight. -/
theorem pay1_apply (x0 : Vec Ideal S10000x64 .f32) (x1 : Vec Ideal S64 .f32) (x2 : Vec Ideal S64x32 .f32)
    (p : Fin 10000) (q : Fin 32) :
    k1_pay1 x0 x1 x2 (ix2 p q) = ∑ k : Fin 64, max (x0 (ix2 p k) + x1 (ix1 k)) 0 * x2 (ix2 k q) := by
  unfold k1_pay1
  refine (DotRecord.matmul_zero_apply dot_S10000x64_S64x32_S10000x32_1_0_0_1_n_n rfl rfl rfl rfl rfl rfl _ _ none p q).trans ?_
  refine Finset.sum_congr rfl fun k _ => ?_
  show max (shapeCast S10000x64 x0 shapeCasts_S10000x64_S10000x64 (ix2 p k)
      + broadcastTo S10000x64 (shapeCast S1x64 x1 shapeCasts_S64_S1x64) broadcasts_S1x64_S10000x64 (ix2 p k))
      (Ideal.ofBits .f32 0x00000000#32) * x2 (ix2 k q) = _
  rw [shapeCast_self, Hmu.Lib.rowVec_apply, Ideal.ofBits_zero_f32]

/-- The index maps over the grid: the row-blocked windows sit at block (t, 0), the bias and the weight at block 0. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of rows of the biased, rectified product is that function of the block of rows. -/
theorem blockrows1 (X : S100000x64.Idx → EReal) (b : S64.Idx → EReal) (W : S64x32.Idx → EReal) (t : Fin cfg1.N)
    (p : Fin 10000) (q : Fin 32) :
    (∑ k : Fin 64, max (X (((cfg1.win 0).blk t).view.emb (ix2 p k)) + b (((cfg1.win 1).blk t).view.emb (ix1 k))) 0
        * W (((cfg1.win 2).blk t).view.emb (ix2 k q)))
      = GcnDense.mm (GcnDense.reluBias X b) W (((cfg1.win 3).blk t).view.emb (ix2 p q)) := by
  obtain ⟨e0, e1, e2, e3, e4, e5, e6⟩ := idx_facts1 t
  show _ = ∑ k : Fin 64, max (X (ix2 ((((cfg1.win 3).blk t).view.emb (ix2 p q)) 0) k) + b (ix1 k)) 0
      * W (ix2 k ((((cfg1.win 3).blk t).view.emb (ix2 p q)) 1))
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * k.val = k.val
      omega
  have h1 : ((cfg1.win 1).blk t).view.emb (ix1 k) = ix1 k := by
    funext a; apply Fin.ext
    match a with
    | ⟨0, _⟩ =>
      show win1_1.index t (0 : Fin 1) * 64 + 1 * k.val = k.val
      omega
  have h2 : ((cfg1.win 2).blk t).view.emb (ix2 k q) = ix2 k ((((cfg1.win 3).blk t).view.emb (ix2 p q)) 1) := by
    funext a; apply Fin.ext
    match a with
    | ⟨0, _⟩ =>
      show win1_2.index t (0 : Fin 2) * 64 + 1 * k.val = k.val
      omega
    | ⟨1, _⟩ =>
      show win1_2.index t (1 : Fin 2) * 32 + 1 * q.val = win1_3.index t (1 : Fin 2) * 32 + 1 * q.val
      omega
  rw [h0, h1, h2]
  rfl

/-- What point t writes back is its block of rows of the biased, rectified product of the arrays the launch finds. -/
theorem flushed1_eq (c : Dev nD) (t : Fin cfg1.N) :
    (dat1 V c).flushed 3 t
      = ((cfg1.win 3).blk t).view.read (Elt Ideal)
          (GcnDense.mm (GcnDense.reluBias (V c main_v32) (V c main_arg3)) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x32) hz2]
  funext j
  obtain ⟨p, q, rfl⟩ : ∃ (p : Fin 10000) (q : Fin 32), j = ix2 p q := ⟨j 0, j 1, eq_ix2 j⟩
  refine (pay1_apply (iblk1 V c 0 t) (iblk1 V c 1 t) (iblk1 V c 2 t) p q).trans ?_
  exact blockrows1 (V c main_v32) (V c main_arg3) (V c main_arg4) t p q

/-- An index of the output is in point t's block iff each coordinate is in the block's range on its axis. -/
theorem mem_blk1 (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v33).slice (win1_3.rect t)).set ↔ _
  rw [View.set_slice_whole, Rect.mem_set_unit]
  exact Iff.rfl

/-- Row r of the output is written by point r / 10000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have ht : (i 0).val / 10000 < cfg1.N := by show _ < grid1.N; rw [N_1]; omega
  refine ⟨⟨(i 0).val / 10000, ht⟩, flush1_3 _, ?_⟩
  obtain ⟨e0, e1, e2, e3, e4, e5, e6⟩ := idx_facts1 ⟨(i 0).val / 10000, ht⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e5]
    show (i 0).val / 10000 * 10000 ≤ (i 0).val ∧ (i 0).val < (i 0).val / 10000 * 10000 + 10000
    omega
  | ⟨1, _⟩ =>
    show win1_3.index ⟨(i 0).val / 10000, ht⟩ (1 : Fin 2) * 32 ≤ (i 1).val
      ∧ (i 1).val < win1_3.index ⟨(i 0).val / 10000, ht⟩ (1 : Fin 2) * 32 + 32
    rw [e6]
    omega

/-- The second launch's output array after the run: the biased, rectified product of the arrays it found. -/
theorem final1 (c : Dev nD) :
    (dat1 V c).arrAt 3 cfg1.N = GcnDense.mm (GcnDense.reluBias (V c main_v32) (V c main_arg3)) (V c main_arg4) :=
  (dat1 V c).arrAt_eq_of_cover 3 (GcnDense.mm (GcnDense.reluBias (V c main_v32) (V c main_arg3)) (V c main_arg4))
    (fun t _ => flushed1_eq V c t) cover1

/-! ## The third launch: a block of rows plus b2 -/

/-- The body's result at entry (p, q) of its tile: the entry plus the bias of its column. -/
theorem pay2_apply (x0 : Vec Ideal S10000x32 .f32) (x1 : Vec Ideal S32 .f32) (p : Fin 10000) (q : Fin 32) :
    k2_pay1 x0 x1 (ix2 p q) = x0 (ix2 p q) + x1 (ix1 q) := by
  unfold k2_pay1
  show shapeCast S10000x32 x0 shapeCasts_S10000x32_S10000x32 (ix2 p q)
      + broadcastTo S10000x32 (shapeCast S1x32 x1 shapeCasts_S32_S1x32) broadcasts_S1x32_S10000x32 (ix2 p q) = _
  rw [shapeCast_self, Hmu.Lib.rowVec_apply]

/-- The index maps over the grid: the row-blocked windows sit at block (t, 0), the bias at block 0. -/
theorem idx_facts2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- A block of rows of the biased array is the biased block of rows. -/
theorem blockrows2 (X : S100000x32.Idx → EReal) (b : S32.Idx → EReal) (t : Fin cfg2.N) (p : Fin 10000) (q : Fin 32) :
    X (((cfg2.win 0).blk t).view.emb (ix2 p q)) + b (((cfg2.win 1).blk t).view.emb (ix1 q))
      = GcnDense.addBias X b (((cfg2.win 2).blk t).view.emb (ix2 p q)) := by
  obtain ⟨e0, e1, e2, e3, e4⟩ := idx_facts2 t
  show _ = X (((cfg2.win 2).blk t).view.emb (ix2 p q)) + b (ix1 ((((cfg2.win 2).blk t).view.emb (ix2 p q)) 1))
  have h0 : ((cfg2.win 0).blk t).view.emb (ix2 p q) = ((cfg2.win 2).blk t).view.emb (ix2 p q) := by
    funext a; apply Fin.ext
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 32 + 1 * q.val = win2_2.index t (1 : Fin 2) * 32 + 1 * q.val
      omega
  have h1 : ((cfg2.win 1).blk t).view.emb (ix1 q) = ix1 ((((cfg2.win 2).blk t).view.emb (ix2 p q)) 1) := by
    funext a; apply Fin.ext
    match a with
    | ⟨0, _⟩ =>
      show win2_1.index t (0 : Fin 1) * 32 + 1 * q.val = win2_2.index t (1 : Fin 2) * 32 + 1 * q.val
      omega
  rw [h0, h1]
  rfl

/-- What point t writes back is its block of rows of the biased array the launch finds. -/
theorem flushed2_eq (c : Dev nD) (t : Fin cfg2.N) :
    (dat2 V c).flushed 2 t
      = ((cfg2.win 2).blk t).view.read (Elt Ideal) (GcnDense.addBias (V c main_v47) (V c main_arg5)) := by
  show (cfg2.win 2).cut (grid2.coords t) ((dat2 V c).after 2 t) = _
  rw [after2_2]
  unfold out2_2
  rw [View.canon_unit_zero hz2]
  simp only [View.ld_unit_zero (S := S10000x32) hz2, View.ld_unit_zero (S := S32) hz1]
  funext j
  obtain ⟨p, q, rfl⟩ : ∃ (p : Fin 10000) (q : Fin 32), j = ix2 p q := ⟨j 0, j 1, eq_ix2 j⟩
  refine (pay2_apply (iblk2 V c 0 t) (iblk2 V c 1 t) p q).trans ?_
  exact blockrows2 (V c main_v47) (V c main_arg5) t p q

/-- An index of the output is in point t's block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v48).slice (win2_2.rect t)).set ↔ _
  rw [View.set_slice_whole, Rect.mem_set_unit]
  exact Iff.rfl

/-- Row r of the output is written by point r / 10000. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have ht : (i 0).val / 10000 < cfg2.N := by show _ < grid2.N; rw [N_2]; omega
  refine ⟨⟨(i 0).val / 10000, ht⟩, flush2_2 _, ?_⟩
  obtain ⟨e0, e1, e2, e3, e4⟩ := idx_facts2 ⟨(i 0).val / 10000, ht⟩
  rw [mem_blk2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e3]
    show (i 0).val / 10000 * 10000 ≤ (i 0).val ∧ (i 0).val < (i 0).val / 10000 * 10000 + 10000
    omega
  | ⟨1, _⟩ =>
    show win2_2.index ⟨(i 0).val / 10000, ht⟩ (1 : Fin 2) * 32 ≤ (i 1).val
      ∧ (i 1).val < win2_2.index ⟨(i 0).val / 10000, ht⟩ (1 : Fin 2) * 32 + 32
    rw [e4]
    omega

/-- The third launch's output array after the run: the biased array it found. -/
theorem final2 (c : Dev nD) :
    (dat2 V c).arrAt 2 cfg2.N = GcnDense.addBias (V c main_v47) (V c main_arg5) :=
  (dat2 V c).arrAt_eq_of_cover 2 (GcnDense.addBias (V c main_v47) (V c main_arg5)) (fun t _ => flushed2_eq V c t) cover2

end Cert.KernelIdeal.Regions

end
-- ==== Proof.KernelValue.lean ====
/-
  What the kernel program leaves in its result buffer.

  The program is six segments: a stretch of host operations (the edge columns, the degrees and the column of weights), the
  first launch (x times W1), a second stretch (scale by the weights, gather along src, segment-sum along dst, scale again),
  the second launch (bias, rectifier, times W2), a third stretch (the same sparse steps over 32 columns) and the third launch
  (bias). The buffer contents at each boundary are a fold through these segments from the launch memory. Read at the buffers
  that matter, the fold says: the arguments, the weight column and the two edge lists pass through every segment untouched;
  each launch's output array is the dense function of the arrays it found; each sparse stretch's result is the kernel's
  arrangement of the layer over the previous launch's output. So the result buffer ends at the composition below, a function
  of the six argument arrays alone.
-/
import proofs.«168526_j29119878267593_2_alg».proof.Proof.Gen.KernelIdeal.Frame
import proofs.«168526_j29119878267593_2_alg».proof.Proof.KernelRegions
import proofs.«168526_j29119878267593_2_alg».proof.Proof.GcnSpec
import Idealize.ShloMosaic.Lib.StableHlo.Run

set_option maxRecDepth 16384

noncomputable section

namespace Cert.KernelIdeal.ValueChain

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The network's result in the kernel's arrangement, as a function of the six argument arrays. -/
def kout (x0 : S100000x128.Idx → EReal) (x1 : GcnSpec.Edges) (x2 : S128x64.Idx → EReal) (x3 : S64.Idx → EReal)
    (x4 : S64x32.Idx → EReal) (x5 : S32.Idx → EReal) : S100000x32.Idx → EReal :=
  GcnDense.addBias (GcnSpec.kerLayer32 x1 (GcnDense.mm (GcnDense.reluBias (GcnSpec.kerLayer64 x1 (GcnDense.mm x0 x2)) x3) x4)) x5

/-! ## The buffers that pass through the segments -/

theorem W1_arg0 (c : Dev nD) : (W1 m ρ c (Proc.devRef .tc main_arg0) : S100000x128.Idx → EReal) = (m ((c : Thread nD τ).loc main_arg0)) := by
  show StableHlo.after hostOps0 (W0 m ρ c) (Proc.devRef .tc main_arg0) = _
  after_results
theorem W1_arg2 (c : Dev nD) : (W1 m ρ c (Proc.devRef .tc main_arg2) : S128x64.Idx → EReal) = (m ((c : Thread nD τ).loc main_arg2)) := by
  show StableHlo.after hostOps0 (W0 m ρ c) (Proc.devRef .tc main_arg2) = _
  after_results
theorem W1_arg3 (c : Dev nD) : (W1 m ρ c (Proc.devRef .tc main_arg3) : S64.Idx → EReal) = (m ((c : Thread nD τ).loc main_arg3)) := by
  show StableHlo.after hostOps0 (W0 m ρ c) (Proc.devRef .tc main_arg3) = _
  after_results
theorem W2_arg3 (c : Dev nD) : (W2 m ρ c (Proc.devRef .tc main_arg3) : S64.Idx → EReal) = (m ((c : Thread nD τ).loc main_arg3)) :=
  (W2_of_ne m ρ c main_arg3 (by decide)).trans (W1_arg3 m ρ c)
theorem W3_arg3 (c : Dev nD) : (W3 m ρ c (Proc.devRef .tc main_arg3) : S64.Idx → EReal) = (m ((c : Thread nD τ).loc main_arg3)) := by
  show StableHlo.after hostOps1 (W2 m ρ c) (Proc.devRef .tc main_arg3) = _
  after_results
  exact W2_arg3 m ρ c
theorem W1_arg4 (c : Dev nD) : (W1 m ρ c (Proc.devRef .tc main_arg4) : S64x32.Idx → EReal) = (m ((c : Thread nD τ).loc main_arg4)) := by
  show StableHlo.after hostOps0 (W0 m ρ c) (Proc.devRef .tc main_arg4) = _
  after_results
theorem W2_arg4 (c : Dev nD) : (W2 m ρ c (Proc.devRef .tc main_arg4) : S64x32.Idx → EReal) = (m ((c : Thread nD τ).loc main_arg4)) :=
  (W2_of_ne m ρ c main_arg4 (by decide)).trans (W1_arg4 m ρ c)
theorem W3_arg4 (c : Dev nD) : (W3 m ρ c (Proc.devRef .tc main_arg4) : S64x32.Idx → EReal) = (m ((c : Thread nD τ).loc main_arg4)) := by
  show StableHlo.after hostOps1 (W2 m ρ c) (Proc.devRef .tc main_arg4) = _
  after_results
  exact W2_arg4 m ρ c
theorem W1_arg5 (c : Dev nD) : (W1 m ρ c (Proc.devRef .tc main_arg5) : S32.Idx → EReal) = (m ((c : Thread nD τ).loc main_arg5)) := by
  show StableHlo.after hostOps0 (W0 m ρ c) (Proc.devRef .tc main_arg5) = _
  after_results
theorem W2_arg5 (c : Dev nD) : (W2 m ρ c (Proc.devRef .tc main_arg5) : S32.Idx → EReal) = (m ((c : Thread nD τ).loc main_arg5)) :=
  (W2_of_ne m ρ c main_arg5 (by decide)).trans (W1_arg5 m ρ c)
theorem W3_arg5 (c : Dev nD) : (W3 m ρ c (Proc.devRef .tc main_arg5) : S32.Idx → EReal) = (m ((c : Thread nD τ).loc main_arg5)) := by
  show StableHlo.after hostOps1 (W2 m ρ c) (Proc.devRef .tc main_arg5) = _
  after_results
  exact W2_arg5 m ρ c
theorem W4_arg5 (c : Dev nD) : (W4 m ρ c (Proc.devRef .tc main_arg5) : S32.Idx → EReal) = (m ((c : Thread nD τ).loc main_arg5)) :=
  (W4_of_ne m ρ c main_arg5 (by decide)).trans (W3_arg5 m ρ c)
theorem W5_arg5 (c : Dev nD) : (W5 m ρ c (Proc.devRef .tc main_arg5) : S32.Idx → EReal) = (m ((c : Thread nD τ).loc main_arg5)) := by
  show StableHlo.after hostOps2 (W4 m ρ c) (Proc.devRef .tc main_arg5) = _
  after_results
  exact W4_arg5 m ρ c
theorem W1_v17 (c : Dev nD) : (W1 m ρ c (Proc.devRef .tc main_v17) : S100000x1.Idx → EReal) = (broadcastInDim S100000x1 ![0] bcast_S100000_S100000x1_0 (Cert.ReferenceIdeal.Read.val_main_v17 (F := Ideal) (m ((c : Thread nD τ).loc main_arg1)))) := by
  show StableHlo.after hostOps0 (W0 m ρ c) (Proc.devRef .tc main_v17) = _
  after_results
  rfl
theorem W2_v17 (c : Dev nD) : (W2 m ρ c (Proc.devRef .tc main_v17) : S100000x1.Idx → EReal) = (broadcastInDim S100000x1 ![0] bcast_S100000_S100000x1_0 (Cert.ReferenceIdeal.Read.val_main_v17 (F := Ideal) (m ((c : Thread nD τ).loc main_arg1)))) :=
  (W2_of_ne m ρ c main_v17 (by decide)).trans (W1_v17 m ρ c)
theorem W3_v17 (c : Dev nD) : (W3 m ρ c (Proc.devRef .tc main_v17) : S100000x1.Idx → EReal) = (broadcastInDim S100000x1 ![0] bcast_S100000_S100000x1_0 (Cert.ReferenceIdeal.Read.val_main_v17 (F := Ideal) (m ((c : Thread nD τ).loc main_arg1)))) := by
  show StableHlo.after hostOps1 (W2 m ρ c) (Proc.devRef .tc main_v17) = _
  after_results
  exact W2_v17 m ρ c
theorem W4_v17 (c : Dev nD) : (W4 m ρ c (Proc.devRef .tc main_v17) : S100000x1.Idx → EReal) = (broadcastInDim S100000x1 ![0] bcast_S100000_S100000x1_0 (Cert.ReferenceIdeal.Read.val_main_v17 (F := Ideal) (m ((c : Thread nD τ).loc main_arg1)))) :=
  (W4_of_ne m ρ c main_v17 (by decide)).trans (W3_v17 m ρ c)
theorem W1_v5 (c : Dev nD) : (W1 m ρ c (Proc.devRef .tc main_v5) : S1700000.Idx → BitVec 32) = (Cert.ReferenceIdeal.Read.val_main_v3 (F := Ideal) (m ((c : Thread nD τ).loc main_arg1))) := by
  show StableHlo.after hostOps0 (W0 m ρ c) (Proc.devRef .tc main_v5) = _
  after_results
  rfl
theorem W2_v5 (c : Dev nD) : (W2 m ρ c (Proc.devRef .tc main_v5) : S1700000.Idx → BitVec 32) = (Cert.ReferenceIdeal.Read.val_main_v3 (F := Ideal) (m ((c : Thread nD τ).loc main_arg1))) :=
  (W2_of_ne m ρ c main_v5 (by decide)).trans (W1_v5 m ρ c)
theorem W3_v5 (c : Dev nD) : (W3 m ρ c (Proc.devRef .tc main_v5) : S1700000.Idx → BitVec 32) = (Cert.ReferenceIdeal.Read.val_main_v3 (F := Ideal) (m ((c : Thread nD τ).loc main_arg1))) := by
  show StableHlo.after hostOps1 (W2 m ρ c) (Proc.devRef .tc main_v5) = _
  after_results
  exact W2_v5 m ρ c
theorem W4_v5 (c : Dev nD) : (W4 m ρ c (Proc.devRef .tc main_v5) : S1700000.Idx → BitVec 32) = (Cert.ReferenceIdeal.Read.val_main_v3 (F := Ideal) (m ((c : Thread nD τ).loc main_arg1))) :=
  (W4_of_ne m ρ c main_v5 (by decide)).trans (W3_v5 m ρ c)
theorem W1_v6 (c : Dev nD) : (W1 m ρ c (Proc.devRef .tc main_v6) : S1700000.Idx → BitVec 32) = (Cert.ReferenceIdeal.Read.val_main_v6 (F := Ideal) (m ((c : Thread nD τ).loc main_arg1))) := by
  show StableHlo.after hostOps0 (W0 m ρ c) (Proc.devRef .tc main_v6) = _
  after_results
  rfl
theorem W2_v6 (c : Dev nD) : (W2 m ρ c (Proc.devRef .tc main_v6) : S1700000.Idx → BitVec 32) = (Cert.ReferenceIdeal.Read.val_main_v6 (F := Ideal) (m ((c : Thread nD τ).loc main_arg1))) :=
  (W2_of_ne m ρ c main_v6 (by decide)).trans (W1_v6 m ρ c)
theorem W3_v6 (c : Dev nD) : (W3 m ρ c (Proc.devRef .tc main_v6) : S1700000.Idx → BitVec 32) = (Cert.ReferenceIdeal.Read.val_main_v6 (F := Ideal) (m ((c : Thread nD τ).loc main_arg1))) := by
  show StableHlo.after hostOps1 (W2 m ρ c) (Proc.devRef .tc main_v6) = _
  after_results
  exact W2_v6 m ρ c
theorem W4_v6 (c : Dev nD) : (W4 m ρ c (Proc.devRef .tc main_v6) : S1700000.Idx → BitVec 32) = (Cert.ReferenceIdeal.Read.val_main_v6 (F := Ideal) (m ((c : Thread nD τ).loc main_arg1))) :=
  (W4_of_ne m ρ c main_v6 (by decide)).trans (W3_v6 m ρ c)

/-! ## The three launches and the two sparse stretches -/

/-- After the first launch its output holds x times W1. -/
theorem W2_v18 (c : Dev nD) :
    (W2 m ρ c (Proc.devRef .tc main_v18) : S100000x64.Idx → EReal) = GcnDense.mm (m ((c : Thread nD τ).loc main_arg0)) (m ((c : Thread nD τ).loc main_arg2)) := by
  refine (W2_arr m ρ c 2).trans ((Regions.final0 (V1 m ρ) c).trans ?_)
  show GcnDense.mm (W1 m ρ c (Proc.devRef .tc main_arg0)) (W1 m ρ c (Proc.devRef .tc main_arg2)) = _
  rw [W1_arg0, W1_arg2]

set_option maxHeartbeats 4000000 in
/-- The first sparse stretch leaves the kernel's arrangement of the layer over that product. -/
theorem W3_v32 (c : Dev nD) :
    (W3 m ρ c (Proc.devRef .tc main_v32) : S100000x64.Idx → EReal)
      = GcnSpec.kerLayer64 (m ((c : Thread nD τ).loc main_arg1)) (GcnDense.mm (m ((c : Thread nD τ).loc main_arg0)) (m ((c : Thread nD τ).loc main_arg2))) := by
  show StableHlo.after hostOps1 (W2 m ρ c) (Proc.devRef .tc main_v32) = _
  after_results_simp
  rw [W2_v18, W2_v17, W2_v5, W2_v6]
  rfl

/-- After the second launch its output holds the biased, rectified layer times W2. -/
theorem W4_v33 (c : Dev nD) :
    (W4 m ρ c (Proc.devRef .tc main_v33) : S100000x32.Idx → EReal)
      = GcnDense.mm (GcnDense.reluBias (GcnSpec.kerLayer64 (m ((c : Thread nD τ).loc main_arg1)) (GcnDense.mm (m ((c : Thread nD τ).loc main_arg0)) (m ((c : Thread nD τ).loc main_arg2)))) (m ((c : Thread nD τ).loc main_arg3))) (m ((c : Thread nD τ).loc main_arg4)) := by
  refine (W4_arr m ρ c 3).trans ((Regions.final1 (V3 m ρ) c).trans ?_)
  show GcnDense.mm (GcnDense.reluBias (W3 m ρ c (Proc.devRef .tc main_v32)) (W3 m ρ c (Proc.devRef .tc main_arg3)))
    (W3 m ρ c (Proc.devRef .tc main_arg4)) = _
  rw [W3_v32, W3_arg3, W3_arg4]

set_option maxHeartbeats 4000000 in
/-- The second sparse stretch leaves the kernel's arrangement of the layer over that. -/
theorem W5_v47 (c : Dev nD) :
    (W5 m ρ c (Proc.devRef .tc main_v47) : S100000x32.Idx → EReal)
      = GcnSpec.kerLayer32 (m ((c : Thread nD τ).loc main_arg1))
          (GcnDense.mm (GcnDense.reluBias (GcnSpec.kerLayer64 (m ((c : Thread nD τ).loc main_arg1)) (GcnDense.mm (m ((c : Thread nD τ).loc main_arg0)) (m ((c : Thread nD τ).loc main_arg2)))) (m ((c : Thread nD τ).loc main_arg3))) (m ((c : Thread nD τ).loc main_arg4))) := by
  show StableHlo.after hostOps2 (W4 m ρ c) (Proc.devRef .tc main_v47) = _
  after_results_simp
  rw [W4_v33, W4_v17, W4_v5, W4_v6]
  rfl

/-- The result buffer at the end of the program: the network's result in the kernel's arrangement. -/
theorem W6_v48 (c : Dev nD) :
    (W6 m ρ c (Proc.devRef .tc main_v48) : S100000x32.Idx → EReal)
      = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ((Regions.final2 (V5 m ρ) c).trans ?_)
  show GcnDense.addBias (W5 m ρ c (Proc.devRef .tc main_v47)) (W5 m ρ c (Proc.devRef .tc main_arg5)) = _
  rw [W5_v47, W5_arg5]
  rfl

/-! ## The run -/

local notation "𝕄" => MT nD τ sig Unit (Elt Ideal) ℕ (UR sig nD τ) ℕ

set_option backward.isDefEq.respectTransparency.types false in
/-- Every weakly fair execution of the kernel program terminates, nothing faulting, with the result buffer at the network's
    result in the kernel's arrangement and the argument arrays as launched: the launch over the six segments, the last
    boundary's contents read against the final state. -/
theorem run : θ_run defs (onTc (τ := τ) (main (F := Ideal))) ⟨m, fun _ => 0, ρ⟩ (fun r => ∀ c : Dev nD,
      r.2.mem ((c.tc : Thread nD τ).loc main_v48) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v48 (by decide))).trans (W6_v48 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ValueChain

end
-- ==== Proof.RefValue.lean ====
/-
  What the reference program leaves in its result buffer.

  The reference computes, twice, a dense step followed by the sparse layer in its own arrangement: x times W1, the layer, bias
  and rectifier, times W2, the layer again over 32 columns, bias. Its run's result term is the staged composition of exactly
  these host operations; read stage by stage it is the composition of the index-wise dense functions and the reference's
  arrangement of the layer.
-/
import proofs.«168526_j29119878267593_2_alg».proof.Proof.Gen.ReferenceIdeal.Read
import proofs.«168526_j29119878267593_2_alg».proof.Proof.GcnSpec

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-- The network's result in the reference's arrangement, as a function of the six argument arrays. -/
def rout (x0 : S100000x128.Idx → EReal) (x1 : GcnSpec.Edges) (x2 : S128x64.Idx → EReal) (x3 : S64.Idx → EReal)
    (x4 : S64x32.Idx → EReal) (x5 : S32.Idx → EReal) : S100000x32.Idx → EReal :=
  GcnDense.addBias (GcnSpec.refLayer32 x1 (GcnDense.mm (GcnDense.reluBias (GcnSpec.refLayer64 x1 (GcnDense.mm x0 x2)) x3) x4)) x5

/-- The reference's last stage is that function of the arguments. -/
theorem val_eq (x0 : S100000x128.Idx → EReal) (x1 : GcnSpec.Edges) (x2 : S128x64.Idx → EReal) (x3 : S64.Idx → EReal)
    (x4 : S64x32.Idx → EReal) (x5 : S32.Idx → EReal) :
    val_main_v91 (F := Ideal) x0 x1 x2 x3 x4 x5 = rout x0 x1 x2 x3 x4 x5 := by
  have h7 : val_main_v7 (F := Ideal) x0 x2 = GcnDense.mm x0 x2 :=
    GcnDense.host_mm dot_S100000x128_S128x64_S100000x64_1_0_0_1_n_n rfl rfl rfl rfl rfl rfl x0 x2 none
  have h45 : val_main_v45 (F := Ideal) x0 x1 x2 = GcnSpec.refLayer64 x1 (val_main_v7 (F := Ideal) x0 x2) := rfl
  have h49 : val_main_v49 (F := Ideal) x0 x1 x2 x3 = GcnDense.reluBias (val_main_v45 (F := Ideal) x0 x1 x2) x3 :=
    GcnDense.host_reluBias bcast_S64_S1x64_1 bcast_S1x64_S100000x64_0_1 bcast_S_S100000x64 (val_main_v45 (F := Ideal) x0 x1 x2) x3
  have h50 : val_main_v50 (F := Ideal) x0 x1 x2 x3 x4 = GcnDense.mm (val_main_v49 (F := Ideal) x0 x1 x2 x3) x4 :=
    GcnDense.host_mm dot_S100000x64_S64x32_S100000x32_1_0_0_1_n_n rfl rfl rfl rfl rfl rfl (val_main_v49 (F := Ideal) x0 x1 x2 x3) x4 none
  have h88 : val_main_v88 (F := Ideal) x0 x1 x2 x3 x4 = GcnSpec.refLayer32 x1 (val_main_v50 (F := Ideal) x0 x1 x2 x3 x4) := rfl
  have h91 : val_main_v91 (F := Ideal) x0 x1 x2 x3 x4 x5 = GcnDense.addBias (val_main_v88 (F := Ideal) x0 x1 x2 x3 x4) x5 :=
    GcnDense.host_addBias bcast_S32_S1x32_1 bcast_S1x32_S100000x32_0_1 (val_main_v88 (F := Ideal) x0 x1 x2 x3 x4) x5
  rw [h91, h88, h50, h49, h45, h7]
  rfl

end Cert.ReferenceIdeal.RefValue

end
-- ==== Proof.lean ====
/-
  A two-layer graph convolution over 100000 nodes and 1700000 edges (the given ones and a self-loop per node), kernel
  against reference, on the extended reals.

  Both programs compute, per layer, out(d) = sum over the edges e landing on d of h(src e) * w(src e) * w(d) + bias, with
  w the inverse square root of the in-degree; the reference multiplies every gathered row by w(src e) * w(dst e) inside
  the sum, the kernel multiplies the table by w before the gather and the sum by w(d) after it, and computes the dense
  steps (x W1; bias, rectifier, W2; bias) in three grid launches over blocks of 10000 rows. The dense steps are the same
  index-wise functions on both sides. The sparse layer's two arrangements agree because w(d) is a nonnegative real wherever
  an edge lands on d (the degree is then a positive count) and both sums are empty elsewhere; no finiteness of the features is
  needed, so the precondition is never opened. The idealization rewrote nothing, so preserves is trivial.
-/
import proofs.«168526_j29119878267593_2_alg».proof.Defs
import proofs.«168526_j29119878267593_2_alg».proof.Proof.Gen.Kernel
import proofs.«168526_j29119878267593_2_alg».proof.Proof.Gen.Kernel.Frame
import proofs.«168526_j29119878267593_2_alg».proof.Proof.Gen.KernelIdeal
import proofs.«168526_j29119878267593_2_alg».proof.Proof.Gen.KernelIdeal.Frame
import proofs.«168526_j29119878267593_2_alg».proof.Proof.Gen.ReferenceIdeal
import proofs.«168526_j29119878267593_2_alg».proof.Proof.Gen.Pre_finite_inputs
import proofs.«168526_j29119878267593_2_alg».proof.Proof.Gen.ReferenceIdeal.Run
import proofs.«168526_j29119878267593_2_alg».proof.Proof.Gen.ReferenceIdeal.Read
import proofs.«168526_j29119878267593_2_alg».proof.Proof.GcnSpec
import proofs.«168526_j29119878267593_2_alg».proof.Proof.KernelValue
import proofs.«168526_j29119878267593_2_alg».proof.Proof.RefValue
import Idealize.ShloMosaic.Adequacy
import Idealize.ShloMosaic.Init

set_option maxRecDepth 16384

noncomputable section

namespace Cert.Proof

open Idealize.ShloMosaic Idealize.SL.Sem

/-! ## The network's two arrangements are one function -/

/-- The kernel's arrangement of the whole network equals the reference's: the sparse layer's law, once per layer. -/
theorem out_eq (x0 : Cert.ReferenceIdeal.S100000x128.Idx → EReal) (x1 : GcnSpec.Edges)
    (x2 : Cert.ReferenceIdeal.S128x64.Idx → EReal) (x3 : Cert.ReferenceIdeal.S64.Idx → EReal)
    (x4 : Cert.ReferenceIdeal.S64x32.Idx → EReal) (x5 : Cert.ReferenceIdeal.S32.Idx → EReal) :
    Cert.KernelIdeal.ValueChain.kout x0 x1 x2 x3 x4 x5 = Cert.ReferenceIdeal.RefValue.rout x0 x1 x2 x3 x4 x5 := by
  unfold Cert.KernelIdeal.ValueChain.kout Cert.ReferenceIdeal.RefValue.rout
  rw [GcnSpec.layer64_eq, GcnSpec.layer32_eq]

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's result: the kernel's run leaves its
    arrangement, the reference's run the reference's, and the two are one function of the arguments. -/
theorem algebraic : Cert.algebraic_KernelIdeal_ReferenceIdeal := by
  intro m ρ m' ρ' _ hagree
  refine ⟨_, Cert.KernelIdeal.ValueChain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.ReferenceIdeal.RefValue.val_eq,
    (hagree c).1, (hagree c).2.1, (hagree c).2.2.1, (hagree c).2.2.2.1, (hagree c).2.2.2.2.1, (hagree c).2.2.2.2.2]
  exact (out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
